-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x256 : Shape := ⟨4, ![32, 56, 56, 256]⟩
abbrev S_ : Shape := ⟨0, ![]⟩

class Facts : Prop where
  bcast_S_S32x56x56x256 : S_.BroadcastsInDim S32x56x56x256 (![] : Fin 0 → Fin S32x56x56x256.rank)
  reducesTo_S32x56x56x256_S_d0_1_2_3 : S32x56x56x256.ReducesTo [0, 1, 2, 3] S_
  h_S_ : 0 < S_.numel

variable [Facts]

def fn {F : FTy → Type} [FloatOps F] (main_arg0 : FVec F S32x56x56x256 .f32) : IVec S_ 1 :=
  let main_v0 : FVec F S32x56x56x256 .f32 := Host.absf main_arg0
  let main_cst : FVec F S_ .f32 := constant S_ .f32 0x7F800000#32
  let main_v1 : FVec F S32x56x56x256 .f32 := broadcastInDim S32x56x56x256 ![] bcast_S_S32x56x56x256 main_cst
  let main_v2 : IVec S32x56x56x256 1 := cmpf .olt main_v0 main_v1
  let main_c : IVec S_ 1 := constantI S_ 1 1#1
  let main_v3 : IVec S_ 1 := (fun x v => Host.reduce IntOp.andi x v reducesTo_S32x56x56x256_S_d0_1_2_3 h_S_) main_v2 main_c
  main_v3
-- ==== Kernel.lean ====
abbrev S32x56x56x256 : Shape := ⟨4, ![32, 56, 56, 256]⟩
abbrev S32x3136x256 : Shape := ⟨3, ![32, 3136, 256]⟩
abbrev S2x3136x256 : Shape := ⟨3, ![2, 3136, 256]⟩
abbrev S1x3136x256 : Shape := ⟨3, ![1, 3136, 256]⟩
abbrev S3136x256 : Shape := ⟨2, ![3136, 256]⟩
abbrev S256x256 : Shape := ⟨2, ![256, 256]⟩
abbrev S256 : Shape := ⟨1, ![256]⟩
abbrev S1x256 : Shape := ⟨2, ![1, 256]⟩

abbrev nBuf : Space → Nat
  | .hbm => 4
  | .vmem => 4
  | .smem => 0
  | _ => 0

abbrev bufTy : (tb : Table) → Fin (tcTables nBuf tb) → BufTy
  | .hbm, ⟨0, _⟩ => ⟨S32x56x56x256, .f32⟩
  | .hbm, ⟨1, _⟩ => ⟨S32x3136x256, .f32⟩
  | .hbm, ⟨2, _⟩ => ⟨S32x3136x256, .f32⟩
  | .hbm, ⟨3, _⟩ => ⟨S32x56x56x256, .f32⟩
  | .local _ .vmem, ⟨0, _⟩ => ⟨S2x3136x256, .f32⟩
  | .local _ .vmem, ⟨1, _⟩ => ⟨S2x3136x256, .f32⟩
  | .local _ .vmem, ⟨2, _⟩ => ⟨S2x3136x256, .f32⟩
  | .local _ .vmem, ⟨3, _⟩ => ⟨S2x3136x256, .f32⟩
  | _, _ => ⟨S32x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3136x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x56x56x256_S32x3136x256 : S32x56x56x256.ShapeCasts S32x3136x256
  inb_S2x3136x256_S1x3136x256_0_0_0 : ∀ a, (![0, 0, 0] : Fin 3 → Nat) a + S1x3136x256.size a ≤ S2x3136x256.size a
  h_S1x3136x256 : 0 < S1x3136x256.numel
  shapeCasts_S1x3136x256_S3136x256 : S1x3136x256.ShapeCasts S3136x256
  reduces_S256x256_S256 : S256x256.Reduces [0] S256
  shapeCasts_S256_S1x256 : S256.ShapeCasts S1x256
  broadcasts_S1x256_S256x256 : S1x256.Broadcasts S256x256
  bitsLt_bf16_f32 : FTy.bits .bf16 < FTy.bits .f32
  shapeCasts_S3136x256_S1x3136x256 : S3136x256.ShapeCasts S1x3136x256
  inb_S2x3136x256_S1x3136x256_1_0_0 : ∀ a, (![1, 0, 0] : Fin 3 → Nat) a + S1x3136x256.size a ≤ S2x3136x256.size a
  shapeCasts_S32x3136x256_S32x56x56x256 : S32x3136x256.ShapeCasts S32x56x56x256
  dot_S3136x256_S3136x256_S256x256_0_0_1_1_n_n_wf : DotDims.WF S3136x256 S3136x256 S256x256 [0] [0] [1] [1] [] []
  dot_S3136x256_S256x256_S3136x256_1_0_0_1_n_n_wf : DotDims.WF S3136x256 S256x256 S3136x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3136x256.size a ≤ S32x3136x256.size a
  hwx0_0 : ∀ i : grid0.Coords, EltTy.bits .f32 = 32 ∨ (Rect.block (s := S32x3136x256) S2x3136x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x3136x256.size a ≤ S32x3136x256.size a
  hwx0_1 : ∀ i : grid0.Coords, EltTy.bits .f32 = 32 ∨ (Rect.block (s := S32x3136x256) S2x3136x256.size (cc0_transform_1 i) (hinb0_1 i)).WholeWords (EltTy.packing .f32)

variable [Facts₀]

def dot_S3136x256_S3136x256_S256x256_0_0_1_1_n_n : DotDims S3136x256 S3136x256 S256x256 where
  lhsContracting := [0]
  rhsContracting := [0]
  lhsNonContracting := [1]
  rhsNonContracting := [1]
  lhsBatch := []
  rhsBatch := []
  wf := dot_S3136x256_S3136x256_S256x256_0_0_1_1_n_n_wf
def dot_S3136x256_S256x256_S3136x256_1_0_0_1_n_n : DotDims S3136x256 S256x256 S3136x256 where
  lhsContracting := [1]
  rhsContracting := [0]
  lhsNonContracting := [0]
  rhsNonContracting := [1]
  lhsBatch := []
  rhsBatch := []
  wf := dot_S3136x256_S256x256_S3136x256_1_0_0_1_n_n_wf

abbrev win0_0 : Pipeline.Window sig grid0 :=
  Pipeline.Window.ofSpec (Memref.whole main_v0) S2x3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x3136x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x56x56x256 : Shape := ⟨4, ![32, 56, 56, 256]⟩
abbrev S32x3136x256 : Shape := ⟨3, ![32, 3136, 256]⟩
abbrev S32x256x256 : Shape := ⟨3, ![32, 256, 256]⟩
abbrev S_ : Shape := ⟨0, ![]⟩
abbrev S32x256 : Shape := ⟨2, ![32, 256]⟩
abbrev S32x256x1 : Shape := ⟨3, ![32, 256, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x56x56x256, .f32⟩
  | .hbm, ⟨1, _⟩ => ⟨S32x3136x256, .f32⟩
  | .hbm, ⟨2, _⟩ => ⟨S32x256x256, .f32⟩
  | .hbm, ⟨3, _⟩ => ⟨S_, .f32⟩
  | .hbm, ⟨4, _⟩ => ⟨S32x256x256, .f32⟩
  | .hbm, ⟨5, _⟩ => ⟨S32x256x256, .f32⟩
  | .hbm, ⟨6, _⟩ => ⟨S_, .f32⟩
  | .hbm, ⟨7, _⟩ => ⟨S32x256, .f32⟩
  | .hbm, ⟨8, _⟩ => ⟨S_, .f32⟩
  | .hbm, ⟨9, _⟩ => ⟨S32x256, .f32⟩
  | .hbm, ⟨10, _⟩ => ⟨S32x256, .f32⟩
  | .hbm, ⟨11, _⟩ => ⟨S32x256x1, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S_, .f32⟩
  | .hbm, ⟨16, _⟩ => ⟨S32x256, .f32⟩
  | .hbm, ⟨17, _⟩ => ⟨S32x256x1, .f32⟩
  | .hbm, ⟨18, _⟩ => ⟨S32x256x256, .f32⟩
  | .hbm, ⟨19, _⟩ => ⟨S32x256x256, .f32⟩
  | .hbm, ⟨20, _⟩ => ⟨S32x3136x256, .f32⟩
  | .hbm, ⟨21, _⟩ => ⟨S32x56x56x256, .f32⟩
  | .hbm, ⟨22, _⟩ => ⟨S32x56x56x256, .f32⟩
  | _, _ => ⟨S32x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  shapeCasts_S32x56x56x256_S32x3136x256 : S32x56x56x256.ShapeCasts S32x3136x256
  bcast_S_S32x256x256 : S_.BroadcastsInDim S32x256x256 (![] : Fin 0 → Fin S32x256x256.rank)
  reducesTo_S32x256x256_S32x256_d2 : S32x256x256.ReducesTo [2] S32x256
  h_S_ : 0 < S_.numel
  bcast_S_S32x256 : S_.BroadcastsInDim S32x256 (![] : Fin 0 → Fin S32x256.rank)
  bcast_S32x256_S32x256x1_0_1 : S32x256.BroadcastsInDim S32x256x1 (![0, 1] : Fin 2 → Fin S32x256x1.rank)
  bcast_S32x256x1_S32x256x256_0_1_2 : S32x256x1.BroadcastsInDim S32x256x256 (![0, 1, 2] : Fin 3 → Fin S32x256x256.rank)
  shapeCasts_S32x3136x256_S32x56x56x256 : S32x3136x256.ShapeCasts S32x56x56x256
  dot_S32x3136x256_S32x3136x256_S32x256x256_1_1_2_2_0_0_wf : DotDims.WF S32x3136x256 S32x3136x256 S32x256x256 [1] [1] [2] [2] [0] [0]
  dot_S32x3136x256_S32x256x256_S32x3136x256_2_2_1_1_0_0_wf : DotDims.WF S32x3136x256 S32x256x256 S32x3136x256 [2] [2] [1] [1] [0] [0]

variable [Facts₀]

def dot_S32x3136x256_S32x3136x256_S32x256x256_1_1_2_2_0_0 : DotDims S32x3136x256 S32x3136x256 S32x256x256 where
  lhsContracting := [1]
  rhsContracting := [1]
  lhsNonContracting := [2]
  rhsNonContracting := [2]
  lhsBatch := [0]
  rhsBatch := [0]
  wf := dot_S32x3136x256_S32x3136x256_S32x256x256_1_1_2_2_0_0_wf
def dot_S32x3136x256_S32x256x256_S32x3136x256_2_2_1_1_0_0 : DotDims S32x3136x256 S32x256x256 S32x3136x256 where
  lhsContracting := [2]
  rhsContracting := [2]
  lhsNonContracting := [1]
  rhsNonContracting := [1]
  lhsBatch := [0]
  rhsBatch := [0]
  wf := dot_S32x3136x256_S32x256x256_S32x3136x256_2_2_1_1_0_0_wf

class Facts : Prop extends Facts₀ where

variable [Facts]
-- ==== Proof.Spec.lean ====
/-
  Channel-wise self-attention of one slab of positions × channels, as a function on the extended reals.

  For a slab `x : Fin 3136 → Fin 256 → EReal` (3136 positions, 256 channels):
    gram x i j  = ∑ d, x d i * x d j                     the channel–channel correlation over the positions
    logit x i j = gram x i j * 2⁻⁴                        scaled by 256^(-1/2) = 1/16, a dyadic number
    softOf r j  = exp (r j - peak r) / ∑ k, exp (r k - peak r),   peak r = max (-∞) (max over k of r k)
    mix x d i   = (∑ j, x d j * softOf (logit x i ·) j) + x d i    the attended value plus the residual
  The correlation is symmetric, summand by summand (multiplication of extended reals commutes), so the row
  `logit x i ·` is also the column `logit x · i`: a softmax taken down the columns of the logits is the
  transpose of the softmax taken along their rows. Nothing here needs the entries to be finite.
-/
import Idealize.ShloMosaic.PureOps.Ideal
import Idealize.ShloMosaic.Lib.ValueIdx

noncomputable section

namespace Cert.ChannelAttention

open Idealize.ShloMosaic Idealize.ShloMosaic.ValueIdx

/-- The scale `256^(-1/2) = 1/16`, as the f32 word both programs write for it. -/
abbrev scale : EReal := Ideal.ofBits .f32 0x3D800000#32
/-- The word of `-∞`, from which both programs start a maximum. -/
abbrev negInf : EReal := Ideal.ofBits .f32 0xFF800000#32

/-- The correlation of channels `i` and `j` over the positions. -/
def gram (x : Fin 3136 → Fin 256 → EReal) (i j : Fin 256) : EReal := ∑ d : Fin 3136, x d i * x d j
/-- The scaled correlation. -/
def logit (x : Fin 3136 → Fin 256 → EReal) (i j : Fin 256) : EReal := gram x i j * scale
/-- The largest entry of a row of logits, started from `-∞` (and compared with `-∞` once more). -/
def peak (r : Fin 256 → EReal) : EReal := max negInf ((Finset.univ : Finset (Fin 256)).fold max negInf r)
/-- The softmax of a row of logits at `j`. -/
def softOf (r : Fin 256 → EReal) (j : Fin 256) : EReal :=
  Ideal.div (Ideal.exp (r j - peak r)) (∑ k : Fin 256, Ideal.exp (r k - peak r))
/-- Position `d`, channel `i` of the result: the slab's row `d` weighted by the softmax of channel `i`'s logits,
    plus the slab's own entry. -/
def mix (x : Fin 3136 → Fin 256 → EReal) (d : Fin 3136) (i : Fin 256) : EReal :=
  (∑ j : Fin 256, x d j * softOf (fun k => logit x i k) j) + x d i

/-- The correlation is symmetric: each summand is a commuted product. -/
theorem gram_symm (x : Fin 3136 → Fin 256 → EReal) (i j : Fin 256) : gram x i j = gram x j i :=
  Finset.sum_congr rfl fun d _ => mul_comm _ _

theorem logit_symm (x : Fin 3136 → Fin 256 → EReal) (i j : Fin 256) : logit x i j = logit x j i := by
  unfold logit; rw [gram_symm]

/-- Column `i` of the logits is row `i`. -/
theorem logit_col (x : Fin 3136 → Fin 256 → EReal) (i : Fin 256) :
    (fun k => logit x k i) = fun k => logit x i k := funext fun k => logit_symm x k i

/-- Batch `b` of a [32, 3136, 256] array, as a slab. -/
def slab (x : (⟨3, ![32, 3136, 256]⟩ : Shape).Idx → EReal) (b : Fin 32) : Fin 3136 → Fin 256 → EReal :=
  fun d i => x (ix3 b d i)

/-- The whole result: every batch's slab mixed, index by index. -/
def attend (x : (⟨3, ![32, 3136, 256]⟩ : Shape).Idx → EReal) : (⟨3, ![32, 3136, 256]⟩ : Shape).Idx → EReal :=
  fun y => mix (slab x (y 0)) (y 1) (y 2)

theorem attend_apply (x : (⟨3, ![32, 3136, 256]⟩ : Shape).Idx → EReal) (b : Fin 32) (d : Fin 3136) (i : Fin 256) :
    attend x (ix3 b d i) = mix (slab x b) d i := rfl

end Cert.ChannelAttention

end
-- ==== Proof.Payload.lean ====
/-
  What the kernel's body computes from one slab `x` (3136 positions × 256 channels), stage by stage, and each
  stage read at an index on the extended reals:
    the first matrix product, contracting the positions, is the correlation  ∑ d, x d i * x d j;
    its scaling by 1/16 is the logit;
    the maximum and the sum are taken DOWN THE COLUMNS (over the first index), so column `i` of the logits plays
    the part of a row: the weights are  exp (logit k i - peak of column i) / ∑ k', exp (logit k' i - peak of column i);
    the second matrix product, contracting the channels, is  ∑ j, x d j * weight j i;  the slab is added back.
  Rounding to a narrower float format is the identity here, and a matrix product into a zero accumulator is the bare sum.
  Since column `i` of the logits is row `i` (the correlation is symmetric), the body's result at (d, i) is `mix x d i`.
-/
import proofs.«142073_j55396488183926_2_alg».proof.Proof.Gen.KernelIdeal.Skeleton
import proofs.«142073_j55396488183926_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ChannelAttention

open Idealize.ShloMosaic Idealize.ShloMosaic.ValueIdx Cert.KernelIdeal Cert.KernelIdeal.Gen

/-! ## The body's stages, named -/

/-- The correlation stage: the slab's transpose times the slab, into zero. -/
def kGram (x : FVec Ideal S3136x256 .f32) : FVec Ideal S256x256 .f32 :=
  matmul dot_S3136x256_S3136x256_S256x256_0_0_1_1_n_n (some .fp32) x x (constant (F := Ideal) S256x256 .f32 0x00000000#32)

/-- The logits: the correlation times 1/16. -/
def kLogit (x : FVec Ideal S3136x256 .f32) : FVec Ideal S256x256 .f32 :=
  mulf (kGram x) (broadcast S256x256 (Scalar.ofBits (F := Ideal) .f32 0x3D800000#32))

/-- The column maxima, from `-∞`. -/
def kPeak (x : FVec Ideal S3136x256 .f32) : FVec Ideal S256 .f32 :=
  maximumf (broadcast S256 (Scalar.ofBits (F := Ideal) .f32 0xFF800000#32))
    (multiReduction .maximumf [0] S256 (kLogit x) 0xFF800000#32 reduces_S256x256_S256 (.inl rfl) rfl)

/-- The exponentials of the logits less their column's maximum. -/
def kExp (x : FVec Ideal S3136x256 .f32) : FVec Ideal S256x256 .f32 :=
  exp (subf (kLogit x) (broadcastTo S256x256 (shapeCast S1x256 (kPeak x) shapeCasts_S256_S1x256) broadcasts_S1x256_S256x256))

/-- The column sums of the exponentials, broadcast back over the rows. -/
def kMass (x : FVec Ideal S3136x256 .f32) : FVec Ideal S256x256 .f32 :=
  broadcastTo S256x256 (shapeCast S1x256
    (multiReduction .add [0] S256 (kExp x) 0x00000000#32 reduces_S256x256_S256 (.inl rfl) rfl) shapeCasts_S256_S1x256) broadcasts_S1x256_S256x256

/-- The body's result for the slab, as the one-slab block it stores: the slab times the weights, plus the slab. -/
def kOut (x : FVec Ideal S3136x256 .f32) (e : FVec Ideal S256x256 .f32) (z : FVec Ideal S256x256 .f32) : FVec Ideal S1x3136x256 .f32 :=
  shapeCast S1x3136x256
    (addf (matmul dot_S3136x256_S256x256_S3136x256_1_0_0_1_n_n none (truncf .bf16 x bitsLt_bf16_f32)
      (truncf .bf16 (divf e z) bitsLt_bf16_f32) (constant (F := Ideal) S3136x256 .f32 0x00000000#32)) x) shapeCasts_S3136x256_S1x3136x256

/-- The first store's payload is the stages applied to the loaded slab. -/
theorem pay2_eq (v0 : Vec Ideal S1x3136x256 .f32) :
    k0_pay2 (F := Ideal) v0 = kOut (shapeCast S3136x256 v0 shapeCasts_S1x3136x256_S3136x256)
      (kExp (shapeCast S3136x256 v0 shapeCasts_S1x3136x256_S3136x256)) (kMass (shapeCast S3136x256 v0 shapeCasts_S1x3136x256_S3136x256)) := rfl

/-- The second store's payload, which the body computes in three parts, is the same stages of its own slab. -/
theorem pay1_eq (v23 : Vec Ideal S1x3136x256 .f32) :
    k0_pay1 (F := Ideal) (k0_pay3 v23) (k0_pay4 v23) (k0_pay5 v23) = kOut (shapeCast S3136x256 v23 shapeCasts_S1x3136x256_S3136x256)
      (kExp (shapeCast S3136x256 v23 shapeCasts_S1x3136x256_S3136x256)) (kMass (shapeCast S3136x256 v23 shapeCasts_S1x3136x256_S3136x256)) := rfl

/-! ## The stages at an index -/

/-- A slab vector as a function of its two coordinates. -/
def asSlab (x : FVec Ideal S3136x256 .f32) : Fin 3136 → Fin 256 → EReal := fun d c => x (ix2 d c)

/-- Off the contracted axis the first product's left operand reads the output's first coordinate, -/
theorem gramL_1 (o : S256x256.Idx) (q : dot_S3136x256_S3136x256_S256x256_0_0_1_1_n_n.contr.Idx) : (dot_S3136x256_S3136x256_S256x256_0_0_1_1_n_n.lhsIdx o q 1).val = (o 0).val := by
  unfold DotDims.lhsIdx
  rw [dif_neg (show ¬(1 : Fin S3136x256.rank) ∈ dot_S3136x256_S3136x256_S256x256_0_0_1_1_n_n.lhsBatch by decide), dif_pos (show (1 : Fin S3136x256.rank) ∈ dot_S3136x256_S3136x256_S256x256_0_0_1_1_n_n.lhsNonContracting by decide)]
  rfl
/-- and its right operand the output's second. -/
theorem gramR_1 (o : S256x256.Idx) (q : dot_S3136x256_S3136x256_S256x256_0_0_1_1_n_n.contr.Idx) : (dot_S3136x256_S3136x256_S256x256_0_0_1_1_n_n.rhsIdx o q 1).val = (o 1).val := by
  unfold DotDims.rhsIdx
  rw [dif_neg (show ¬(1 : Fin S3136x256.rank) ∈ dot_S3136x256_S3136x256_S256x256_0_0_1_1_n_n.rhsBatch by decide), dif_pos (show (1 : Fin S3136x256.rank) ∈ dot_S3136x256_S3136x256_S256x256_0_0_1_1_n_n.rhsNonContracting by decide)]
  rfl
/-- Off the contracted axis the second product's left operand reads the output's position, -/
theorem mixL_0 (o : S3136x256.Idx) (q : dot_S3136x256_S256x256_S3136x256_1_0_0_1_n_n.contr.Idx) : (dot_S3136x256_S256x256_S3136x256_1_0_0_1_n_n.lhsIdx o q 0).val = (o 0).val := by
  unfold DotDims.lhsIdx
  rw [dif_neg (show ¬(0 : Fin S3136x256.rank) ∈ dot_S3136x256_S256x256_S3136x256_1_0_0_1_n_n.lhsBatch by decide), dif_pos (show (0 : Fin S3136x256.rank) ∈ dot_S3136x256_S256x256_S3136x256_1_0_0_1_n_n.lhsNonContracting by decide)]
  rfl
/-- and its right operand the output's channel. -/
theorem mixR_1 (o : S3136x256.Idx) (q : dot_S3136x256_S256x256_S3136x256_1_0_0_1_n_n.contr.Idx) : (dot_S3136x256_S256x256_S3136x256_1_0_0_1_n_n.rhsIdx o q 1).val = (o 1).val := by
  unfold DotDims.rhsIdx
  rw [dif_neg (show ¬(1 : Fin S256x256.rank) ∈ dot_S3136x256_S256x256_S3136x256_1_0_0_1_n_n.rhsBatch by decide), dif_pos (show (1 : Fin S256x256.rank) ∈ dot_S3136x256_S256x256_S3136x256_1_0_0_1_n_n.rhsNonContracting by decide)]
  rfl

theorem kGram_apply (x : FVec Ideal S3136x256 .f32) (i j : Fin 256) :
    kGram x (ix2 i j) = gram (asSlab x) i j := by
  unfold kGram gram asSlab
  simp only [matmul]
  rw [Ideal.matmul_constant_zero_apply, ← Equiv.sum_comp (contrEquiv1 dot_S3136x256_S3136x256_S256x256_0_0_1_1_n_n 3136 rfl rfl).symm]
  refine Finset.sum_congr rfl fun k _ => ?_
  have hk := contrEquiv1_symm_val dot_S3136x256_S3136x256_S256x256_0_0_1_1_n_n 3136 rfl rfl k
  have el : dot_S3136x256_S3136x256_S256x256_0_0_1_1_n_n.lhsIdx (ix2 i j) ((contrEquiv1 dot_S3136x256_S3136x256_S256x256_0_0_1_1_n_n 3136 rfl rfl).symm k) = ix2 k i := funext fun a => Fin.ext (by
    match a with
    | ⟨0, _⟩ => exact (dot_S3136x256_S3136x256_S256x256_0_0_1_1_n_n.lhsIdx_val_of_single rfl _ _).trans hk
    | ⟨1, _⟩ => exact gramL_1 _ _)
  have er : dot_S3136x256_S3136x256_S256x256_0_0_1_1_n_n.rhsIdx (ix2 i j) ((contrEquiv1 dot_S3136x256_S3136x256_S256x256_0_0_1_1_n_n 3136 rfl rfl).symm k) = ix2 k j := funext fun a => Fin.ext (by
    match a with
    | ⟨0, _⟩ => exact (dot_S3136x256_S3136x256_S256x256_0_0_1_1_n_n.rhsIdx_val_of_single rfl _ _).trans hk
    | ⟨1, _⟩ => exact gramR_1 _ _)
  rw [el, er]

theorem kLogit_apply (x : FVec Ideal S3136x256 .f32) (i j : Fin 256) :
    kLogit x (ix2 i j) = logit (asSlab x) i j := by
  unfold kLogit logit
  rw [mulf_apply, kGram_apply]
  rfl

/-- A column of a 256 × 256 vector, read off the reduction's inserted index. -/
theorem lift_col (h : S256x256.Reduces [0] S256) (i k : Fin 256) : h.lift (ix1 i) k = ix2 k i :=
  funext fun a => Fin.ext (by match a with | ⟨0, _⟩ => rfl | ⟨1, _⟩ => rfl)

theorem kPeak_apply (x : FVec Ideal S3136x256 .f32) (i : Fin 256) :
    kPeak x (ix1 i) = peak (fun k => logit (asSlab x) k i) := by
  unfold kPeak peak
  rw [maximumf_apply]
  refine congrArg (max negInf) ?_
  refine (Ideal.multiReduction_maximumf_single (kLogit x) 0xFF800000#32 reduces_S256x256_S256 (.inl rfl) rfl (ix1 i)).trans ?_
  refine congrArg (Finset.univ.fold max negInf) (funext fun (k : Fin 256) => ?_)
  exact (congrArg (kLogit x) (lift_col _ i k)).trans (kLogit_apply x k i)

theorem kExp_apply (x : FVec Ideal S3136x256 .f32) (k i : Fin 256) :
    kExp x (ix2 k i) = Ideal.exp (logit (asSlab x) k i - peak (fun k' => logit (asSlab x) k' i)) := by
  unfold kExp
  show Ideal.exp (kLogit x (ix2 k i) - broadcastTo S256x256 (shapeCast S1x256 (kPeak x) shapeCasts_S256_S1x256) broadcasts_S1x256_S256x256 (ix2 k i)) = _
  rw [broadcastTo_1b_ab_apply, shapeCast_a_1a_apply, kLogit_apply, kPeak_apply]

theorem kMass_apply (x : FVec Ideal S3136x256 .f32) (k i : Fin 256) :
    kMass x (ix2 k i) = ∑ k' : Fin 256, Ideal.exp (logit (asSlab x) k' i - peak (fun k'' => logit (asSlab x) k'' i)) := by
  unfold kMass
  rw [broadcastTo_1b_ab_apply, shapeCast_a_1a_apply]
  refine (Ideal.multiReduction_add_single (kExp x) 0x00000000#32 reduces_S256x256_S256 (.inl rfl) rfl (ix1 i)).trans ?_
  refine Finset.sum_congr rfl fun (k' : Fin 256) _ => ?_
  exact (congrArg (kExp x) (lift_col _ i k')).trans (kExp_apply x k' i)

/-- The weight the body puts on channel `j` for output channel `i`: the softmax of COLUMN `i` of the logits at `j`. -/
theorem weight_apply (x : FVec Ideal S3136x256 .f32) (j i : Fin 256) :
    divf (kExp x) (kMass x) (ix2 j i) = softOf (fun k => logit (asSlab x) k i) j := by
  rw [divf_apply, kExp_apply, kMass_apply]
  rfl

/-- The second matrix product at an index: the contraction runs over the channels. -/
theorem mixProduct_apply (l : FVec Ideal S3136x256 .bf16) (r : FVec Ideal S256x256 .bf16) (d : Fin 3136) (i : Fin 256) :
    matmul dot_S3136x256_S256x256_S3136x256_1_0_0_1_n_n none l r (constant (F := Ideal) S3136x256 .f32 0x00000000#32) (ix2 d i)
      = ∑ j : Fin 256, l (ix2 d j) * r (ix2 j i) := by
  simp only [matmul]
  rw [Ideal.matmul_constant_zero_apply, ← Equiv.sum_comp (contrEquiv1 dot_S3136x256_S256x256_S3136x256_1_0_0_1_n_n 256 rfl rfl).symm]
  refine Finset.sum_congr rfl fun k _ => ?_
  have hk := contrEquiv1_symm_val dot_S3136x256_S256x256_S3136x256_1_0_0_1_n_n 256 rfl rfl k
  have el : dot_S3136x256_S256x256_S3136x256_1_0_0_1_n_n.lhsIdx (ix2 d i) ((contrEquiv1 dot_S3136x256_S256x256_S3136x256_1_0_0_1_n_n 256 rfl rfl).symm k) = ix2 d k := funext fun a => Fin.ext (by
    match a with
    | ⟨0, _⟩ => exact mixL_0 _ _
    | ⟨1, _⟩ => exact (dot_S3136x256_S256x256_S3136x256_1_0_0_1_n_n.lhsIdx_val_of_single rfl _ _).trans hk)
  have er : dot_S3136x256_S256x256_S3136x256_1_0_0_1_n_n.rhsIdx (ix2 d i) ((contrEquiv1 dot_S3136x256_S256x256_S3136x256_1_0_0_1_n_n 256 rfl rfl).symm k) = ix2 k i := funext fun a => Fin.ext (by
    match a with
    | ⟨0, _⟩ => exact (dot_S3136x256_S256x256_S3136x256_1_0_0_1_n_n.rhsIdx_val_of_single rfl _ _).trans hk
    | ⟨1, _⟩ => exact mixR_1 _ _)
  rw [el, er]

/-- THE BODY'S RESULT for a slab, at position `d` and channel `i`, is the specification's `mix`: the column softmax the
    body takes is the row softmax, the logits being symmetric. -/
theorem kOut_apply (x : FVec Ideal S3136x256 .f32) (u : Fin 1) (d : Fin 3136) (i : Fin 256) :
    kOut x (kExp x) (kMass x) (ix3 u d i) = mix (asSlab x) d i := by
  unfold kOut mix
  rw [shapeCast_ab_1ab_apply, addf_apply, mixProduct_apply]
  refine congrArg (· + x (ix2 d i)) (Finset.sum_congr rfl fun j _ => ?_)
  rw [truncf_apply, truncf_apply, weight_apply, logit_col]
  rfl

end Cert.ChannelAttention

end
-- ==== Proof.Block.lean ====
/-
  What the body leaves in the output's staging buffer, as one function of the input block.

  A block holds two slabs (two batches). The body handles them one after the other: it loads slab `b` of the input
  block through the unit rectangle at offset (b, 0, 0), computes the slab's attention, and stores the result through
  the same rectangle of the output block. So the output block at (b, d, i) is `mix` of the input block's slab `b`
  at (d, i), for both slabs: the two stores are the two halves of one function of the block index.
-/
import proofs.«142073_j55396488183926_2_alg».proof.Proof.Gen.KernelIdeal.Frame
import proofs.«142073_j55396488183926_2_alg».proof.Proof.Payload

noncomputable section

namespace Cert.ChannelAttention

open Idealize.ShloMosaic Idealize.ShloMosaic.ValueIdx Cert.KernelIdeal Cert.KernelIdeal.Gen

/-- Slab `b` of a two-slab block. -/
def blockSlab (x0 : Vec Ideal S2x3136x256 .f32) (b : Fin 2) : Fin 3136 → Fin 256 → EReal := fun d c => x0 (ix3 b d c)

/-- The block the body should leave: each slab mixed. -/
def blockMix (x0 : Vec Ideal S2x3136x256 .f32) : Vec Ideal S2x3136x256 .f32 := fun y => mix (blockSlab x0 (y 0)) (y 1) (y 2)

theorem blockMix_apply (x0 : Vec Ideal S2x3136x256 .f32) (b : Fin 2) (d : Fin 3136) (i : Fin 256) :
    blockMix x0 (ix3 b d i) = mix (blockSlab x0 b) d i := rfl

/-- The first slab's rectangle places (u, d, i) at (0, d, i) of the block, -/
theorem idx_r0_0 (u : Fin 1) (d : Fin 3136) (i : Fin 256) : r0_0.idx (ix3 u d i) = ix3 (0 : Fin 2) d i :=
  funext fun a => Fin.ext (by
    match a with
    | ⟨0, _⟩ => show 0 + 1 * u.val = 0; omega
    | ⟨1, _⟩ => show 0 + 1 * d.val = d.val; omega
    | ⟨2, _⟩ => show 0 + 1 * i.val = i.val; omega)

/-- and the second slab's at (1, d, i). -/
theorem idx_r0_1 (u : Fin 1) (d : Fin 3136) (i : Fin 256) : r0_1.idx (ix3 u d i) = ix3 (1 : Fin 2) d i :=
  funext fun a => Fin.ext (by
    match a with
    | ⟨0, _⟩ => show 1 + 1 * u.val = 1; omega
    | ⟨1, _⟩ => show 0 + 1 * d.val = d.val; omega
    | ⟨2, _⟩ => show 0 + 1 * i.val = i.val; omega)

/-- The slab the body works on after loading through the first rectangle is slab 0 of the block, -/
theorem slab_r0_0 (x0 : Vec Ideal S2x3136x256 .f32) :
    asSlab (shapeCast S3136x256 (View.ld x0 r0_0) shapeCasts_S1x3136x256_S3136x256) = blockSlab x0 0 := by
  funext d c
  unfold asSlab blockSlab
  rw [shapeCast_1ab_ab_apply]
  show x0 (r0_0.idx (ix3 (0 : Fin 1) d c)) = _
  rw [idx_r0_0]

/-- and through the second, slab 1. -/
theorem slab_r0_1 (x0 : Vec Ideal S2x3136x256 .f32) :
    asSlab (shapeCast S3136x256 (View.ld x0 r0_1) shapeCasts_S1x3136x256_S3136x256) = blockSlab x0 1 := by
  funext d c
  unfold asSlab blockSlab
  rw [shapeCast_1ab_ab_apply]
  show x0 (r0_1.idx (ix3 (0 : Fin 1) d c)) = _
  rw [idx_r0_1]

/-- The first store's payload, at an index of its rectangle, is the block function there. -/
theorem piece0 (x0 : Vec Ideal S2x3136x256 .f32) (x : S1x3136x256.Idx) :
    k0_pay2 (F := Ideal) (View.ld x0 r0_0) x = blockMix x0 (r0_0.idx x) := by
  obtain ⟨u, d, i, rfl⟩ : ∃ (u : Fin 1) (d : Fin 3136) (i : Fin 256), x = ix3 u d i := ⟨x 0, x 1, x 2, eq_ix3 x⟩
  rw [pay2_eq, kOut_apply, slab_r0_0, idx_r0_0, blockMix_apply]

/-- The second store's likewise. -/
theorem piece1 (x0 : Vec Ideal S2x3136x256 .f32) (x : S1x3136x256.Idx) :
    k0_pay1 (F := Ideal) (k0_pay3 (View.ld x0 r0_1)) (k0_pay4 (View.ld x0 r0_1)) (k0_pay5 (View.ld x0 r0_1)) x = blockMix x0 (r0_1.idx x) := by
  obtain ⟨u, d, i, rfl⟩ : ∃ (u : Fin 1) (d : Fin 3136) (i : Fin 256), x = ix3 u d i := ⟨x 0, x 1, x 2, eq_ix3 x⟩
  rw [pay1_eq, kOut_apply, slab_r0_1, idx_r0_1, blockMix_apply]

/-- WHAT THE BODY LEAVES in the output's buffer is the block function of the input block: both stores are pieces of it,
    and together they cover the buffer. -/
theorem out_eq (x0 : Vec Ideal S2x3136x256 .f32) : out0_1 (F := Ideal) x0 = blockMix x0 := by
  funext y
  unfold out0_1
  refine View.canon_apply_of_pieces (blockMix x0) _ ?_ y (cover0_1 _ _ y)
  intro p hp x
  simp only [List.mem_cons, List.mem_nil_iff, or_false] at hp
  rcases hp with rfl | rfl
  · exact piece1 x0 x
  · exact piece0 x0 x

end Cert.ChannelAttention

end
-- ==== Proof.Array.lean ====
/-
  From blocks to the array.

  Grid point `t` (of 16) works on the block of batches 2t and 2t+1, for the input and for the output alike: both index
  maps send `t` to block (t, 0, 0) of blocks of extent (2, 3136, 256). So slab `b` of point `t`'s input block is batch
  2t + b of the array the region finds, and what the point writes back — each of its two slabs mixed — is that block of
  the whole array's `attend`. Batch `r` lies in the block of point `r / 2`, so the sixteen blocks cover the array and the
  output array ends holding `attend` of the input array.
-/
import proofs.«142073_j55396488183926_2_alg».proof.Proof.Gen.KernelIdeal.Frame
import proofs.«142073_j55396488183926_2_alg».proof.Proof.Block
import Idealize.ShloMosaic.Lib.Pipeline.Value

set_option maxRecDepth 16384

noncomputable section

namespace Cert.ChannelAttention

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The printed index maps, decided over the sixteen points: block (t, 0, 0) for the input and for the output. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem point_lt (t : Fin cfg0.N) : t.val < 16 := lt_of_lt_of_eq t.isLt N_0

/-- Batch 2t + b, the batch of slab `b` of point `t`'s block. -/
def batchOf (t : Fin cfg0.N) (b : Fin 2) : Fin 32 := ⟨2 * t.val + b.val, by have := point_lt t; have := b.isLt; omega⟩

/-- Point `t`'s input block at (b, d, i) is the array the region finds at (2t + b, d, i). -/
theorem iblk_apply (c : Dev nD) (t : Fin cfg0.N) (b : Fin 2) (d : Fin 3136) (i : Fin 256) :
    iblk m c 0 t (ix3 b d i) = V m c main_v0 (ix3 (batchOf t b) d i) := by
  show V m c main_v0 (((cfg0.win 0).blk t).view.emb (ix3 b d i)) = _
  obtain ⟨e0, e1, e2, -, -, -⟩ := idx_facts t
  refine congrArg (V m c main_v0) (funext fun a => Fin.ext ?_)
  match a with
  | ⟨0, _⟩ => show win0_0.index t (0 : Fin 3) * 2 + 1 * b.val = 2 * t.val + b.val; omega
  | ⟨1, _⟩ => show win0_0.index t (1 : Fin 3) * 3136 + 1 * d.val = d.val; omega
  | ⟨2, _⟩ => show win0_0.index t (2 : Fin 3) * 256 + 1 * i.val = i.val; omega

/-- Point `t`'s output block places (b, d, i) at (2t + b, d, i) of its array. -/
theorem oblk_emb (t : Fin cfg0.N) (b : Fin 2) (d : Fin 3136) (i : Fin 256) :
    ((cfg0.win 1).blk t).view.emb (ix3 b d i) = ix3 (batchOf t b) d i := by
  obtain ⟨-, -, -, e0, e1, e2⟩ := idx_facts t
  refine funext fun a => Fin.ext ?_
  match a with
  | ⟨0, _⟩ => show win0_1.index t (0 : Fin 3) * 2 + 1 * b.val = 2 * t.val + b.val; omega
  | ⟨1, _⟩ => show win0_1.index t (1 : Fin 3) * 3136 + 1 * d.val = d.val; omega
  | ⟨2, _⟩ => show win0_1.index t (2 : Fin 3) * 256 + 1 * i.val = i.val; omega

/-- WHAT POINT `t` WRITES BACK is block `t` of `attend` of the array the region finds. -/
theorem flushed_eq (c : Dev nD) (t : Fin cfg0.N) :
    (dats m 0 c).flushed 1 t = ((cfg0.win 1).blk t).view.read (Elt Ideal) (attend (V m c main_v0)) := by
  show (cfg0.win 1).cut (grid0.coords t) ((dats m 0 c).after 1 t) = _
  rw [after0_1, out_eq]
  funext j
  obtain ⟨b, d, i, rfl⟩ : ∃ (b : Fin 2) (d : Fin 3136) (i : Fin 256), j = ix3 b d i := ⟨j 0, j 1, j 2, eq_ix3 j⟩
  show blockMix (iblk m c 0 t) (ix3 b d i) = attend (V m c main_v0) (((cfg0.win 1).blk t).view.emb (ix3 b d i))
  rw [oblk_emb, attend_apply, blockMix_apply]
  exact congrArg (fun s => mix s d i) (funext fun d' => funext fun c' => iblk_apply m c t b d' c')

/-- An index of the output array is in point `t`'s block iff each coordinate is in the block's range on its axis. -/
theorem mem_blk (t : Fin cfg0.N) (i : S32x3136x256.Idx) :
    i ∈ ((cfg0.win 1).blk t).view.set ↔ ∀ a : Fin 3, win0_1.index t a * S2x3136x256.size a ≤ (i a).val ∧ (i a).val < win0_1.index t a * S2x3136x256.size a + S2x3136x256.size a := by
  show i ∈ ((View.whole main_v1).slice (win0_1.rect t)).set ↔ _
  rw [View.set_slice_whole, Rect.mem_set_unit]
  exact Iff.rfl

/-- Every index of the output array is in some point's block: batch `r` in the block of point `r / 2`. -/
theorem cover (i : S32x3136x256.Idx) : ∃ t : Fin cfg0.N, (cfg0.win 1).flush t = true ∧ i ∈ ((cfg0.win 1).blk t).view.set := by
  have h0 : (i 0).val < 32 := (i 0).isLt
  have h1 : (i 1).val < 3136 := (i 1).isLt
  have h2 : (i 2).val < 256 := (i 2).isLt
  have hN : grid0.N = 16 := N_0
  have ht : (i 0).val / 2 < cfg0.N := by show (i 0).val / 2 < grid0.N; omega
  refine ⟨⟨(i 0).val / 2, ht⟩, flush0_1 _, ?_⟩
  rw [mem_blk]
  obtain ⟨-, -, -, e0, e1, e2⟩ := idx_facts ⟨(i 0).val / 2, ht⟩
  intro a
  match a with
  | ⟨0, _⟩ =>
    show win0_1.index ⟨(i 0).val / 2, ht⟩ (0 : Fin 3) * 2 ≤ (i 0).val ∧ (i 0).val < win0_1.index ⟨(i 0).val / 2, ht⟩ (0 : Fin 3) * 2 + 2
    rw [e0]; show (i 0).val / 2 * 2 ≤ (i 0).val ∧ (i 0).val < (i 0).val / 2 * 2 + 2; omega
  | ⟨1, _⟩ =>
    show win0_1.index ⟨(i 0).val / 2, ht⟩ (1 : Fin 3) * 3136 ≤ (i 1).val ∧ (i 1).val < win0_1.index ⟨(i 0).val / 2, ht⟩ (1 : Fin 3) * 3136 + 3136
    rw [e1]; omega
  | ⟨2, _⟩ =>
    show win0_1.index ⟨(i 0).val / 2, ht⟩ (2 : Fin 3) * 256 ≤ (i 2).val ∧ (i 2).val < win0_1.index ⟨(i 0).val / 2, ht⟩ (2 : Fin 3) * 256 + 256
    rw [e2]; omega

/-- THE OUTPUT ARRAY after the run: `attend` of the array the region finds as its input. -/
theorem final (c : Dev nD) : (dats m 0 c).arrAt 1 cfg0.N = attend (V m c main_v0) :=
  (dats m 0 c).arrAt_eq_of_cover 1 (attend (V m c main_v0)) (fun t _ => flushed_eq m c t) cover

end Cert.ChannelAttention

end
-- ==== Proof.KernelRun.lean ====
/-
  The kernel's whole program, read as a value.

  Before the region the program reshapes its argument [32, 56, 56, 256] to [32, 3136, 256] (merging the two spatial axes
  into one axis of positions); that array is what the region finds as its input. After the region it reshapes the
  region's output array back to [32, 56, 56, 256]. The output array after the region is `attend` of the input array
  (the blocks cover it), so every execution ends with the result at
      reshape (attend (reshape argument)),
  and the argument as it was.
-/
import proofs.«142073_j55396488183926_2_alg».proof.Proof.Array
import Idealize.ShloMosaic.Lib.StableHlo.Run

noncomputable section

namespace Cert.ChannelAttention

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The array the region finds as its input is the argument with its two spatial axes merged. -/
theorem V_input (c : Dev nD) : (V m c main_v0 : S32x3136x256.Idx → EReal)
    = shapeCast S32x3136x256 (m ((c : Thread nD τ).loc main_arg0)) shapeCasts_S32x56x56x256_S32x3136x256 := by
  show StableHlo.after hostOps0 (fun b => m (c, b)) (Proc.devRef .tc main_v0) = _
  after_results
  rfl

/-- The result buffer after the last line is the region's output array with the positions split back into two axes. -/
theorem tail_eq (c : Dev nD) :
    (Pipeline.afterTail₀ cfgs (dats m) 0 (V0 m) [hostOps1] c main_v2 : S32x56x56x256.Idx → EReal)
      = shapeCast S32x56x56x256 ((dats m 0 c).arrAt 1 cfg0.N) shapeCasts_S32x3136x256_S32x56x56x256 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 1 cfg0.N := Pipeline.withArrays_arr spec0 launch0.win.arr_inj c _ _ 1
  rw [hw]
  rfl

/-- Every weakly fair execution of the kernel's program terminates with the result at the reshape of `attend` of the
    reshaped argument, and the argument unchanged. -/
theorem kernel_run : θ_run defs (onTc (τ := τ) (main (F := Ideal))) ⟨m, fun _ => 0, ρ⟩ fun r => ∀ c : Dev nD,
      r.2.mem ((c : Thread nD τ).loc main_v2)
        = shapeCast S32x56x56x256 (attend (shapeCast S32x3136x256 (m ((c : Thread nD τ).loc main_arg0)) shapeCasts_S32x56x56x256_S32x3136x256)) shapeCasts_S32x3136x256_S32x56x56x256
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans
          ((tail_eq m c).trans (by rw [final, V_input])),
        ((h c).2 main_arg0 (Pipeline.mem_restRefs_of main_arg0 (by decide) (by decide))).trans (W_main_arg0 m (dats m) c)⟩)
    (run_main m ρ)

end Cert.ChannelAttention

end
-- ==== Proof.RefRead.lean ====
/-
  The reference, stage by stage, is the specification.

  With `X` the argument reshaped to [32, 3136, 256], batch `b` of the reference computes, index by index:
    the batched product contracting the positions:  ∑ d, X b d i * X b d j, times 1/16 — the logit of batch `b`'s slab;
    the maximum over the last axis, from `-∞`, compared with `-∞` once more — the peak of ROW `i` of the logits;
    the exponentials less the peak, their sum over the last axis (from zero), the quotient — the row softmax;
    the batched product contracting the channels:  ∑ j, X b d j * softmax i j;
  and the whole, reshaped back to [32, 56, 56, 256], plus the argument. A reshape commutes with an entrywise sum and
  the two reshapes of the argument cancel, so the result is the reshape of `attend X`.
-/
import proofs.«142073_j55396488183926_2_alg».proof.Proof.Gen.ReferenceIdeal.Read
import proofs.«142073_j55396488183926_2_alg».proof.Proof.Spec
import Idealize.ShloMosaic.Lib.ValueIdx
import Idealize.ShloMosaic.Lib.Pipeline.Value
import Idealize.ShloMosaic.PureOps.Ideal.Laws

noncomputable section

namespace Cert.ChannelAttention

open Idealize.ShloMosaic Idealize.ShloMosaic.ValueIdx Cert.ReferenceIdeal Cert.ReferenceIdeal.Gen Cert.ReferenceIdeal.Read

variable (a : (⟨S32x56x56x256, .f32⟩ : BufTy).Contents (Elt Ideal))

/-- Batch `b` of the reshaped argument, as a slab. -/
abbrev refSlab (b : Fin 32) : Fin 3136 → Fin 256 → EReal := slab (val_main_v0 (F := Ideal) a) b

/-! ## The operand indices of each stage, by coordinates -/

theorem lidx1 (b : Fin 32) (i j : Fin 256) (k : Fin 3136) : lidx_main_v1 (ix3 b i j) k = ix3 b k i :=
  funext fun x => Fin.ext (by match x with | ⟨0, _⟩ => rfl | ⟨1, _⟩ => rfl | ⟨2, _⟩ => rfl)
theorem ridx1 (b : Fin 32) (i j : Fin 256) (k : Fin 3136) : ridx_main_v1 (ix3 b i j) k = ix3 b k j :=
  funext fun x => Fin.ext (by match x with | ⟨0, _⟩ => rfl | ⟨1, _⟩ => rfl | ⟨2, _⟩ => rfl)
theorem lift_row (h : S32x256x256.Reduces [2] S32x256) (b : Fin 32) (i k : Fin 256) : h.lift (ix2 b i) k = ix3 b i k :=
  funext fun x => Fin.ext (by match x with | ⟨0, _⟩ => rfl | ⟨1, _⟩ => rfl | ⟨2, _⟩ => rfl)
theorem idx78 (b : Fin 32) (i j : Fin 256) : idx_main_v7 (idx_main_v8 (ix3 b i j)) = ix2 b i :=
  funext fun x => Fin.ext (by match x with | ⟨0, _⟩ => rfl | ⟨1, _⟩ => rfl)
theorem idx11 (b : Fin 32) (i k : Fin 256) : idx_main_v11 (ix2 b i) k = ix3 b i k :=
  funext fun x => Fin.ext (by match x with | ⟨0, _⟩ => rfl | ⟨1, _⟩ => rfl | ⟨2, _⟩ => rfl)
theorem idx1213 (b : Fin 32) (i j : Fin 256) : idx_main_v12 (idx_main_v13 (ix3 b i j)) = ix2 b i :=
  funext fun x => Fin.ext (by match x with | ⟨0, _⟩ => rfl | ⟨1, _⟩ => rfl)
theorem lidx15 (b : Fin 32) (d : Fin 3136) (i k : Fin 256) : lidx_main_v15 (ix3 b d i) k = ix3 b d k :=
  funext fun x => Fin.ext (by match x with | ⟨0, _⟩ => rfl | ⟨1, _⟩ => rfl | ⟨2, _⟩ => rfl)
theorem ridx15 (b : Fin 32) (d : Fin 3136) (i k : Fin 256) : ridx_main_v15 (ix3 b d i) k = ix3 b i k :=
  funext fun x => Fin.ext (by match x with | ⟨0, _⟩ => rfl | ⟨1, _⟩ => rfl | ⟨2, _⟩ => rfl)

/-! ## The stages -/

/-- The scaled batched product is the logit of the batch's slab. -/
theorem ref_logit (b : Fin 32) (i j : Fin 256) : val_main_v3 (F := Ideal) a (ix3 b i j) = logit (refSlab a b) i j := by
  rw [val_main_v3_apply, val_main_v1_apply, val_main_v2_apply, val_main_cst_apply]
  simp only [lidx1, ridx1]
  rfl

/-- The maximum over the last axis is the fold of `max` from `-∞` over a row of logits. -/
theorem ref_rowmax (b : Fin 32) (i : Fin 256) :
    val_main_v4 (F := Ideal) a (ix2 b i) = (Finset.univ : Finset (Fin 256)).fold max negInf (fun k => logit (refSlab a b) i k) := by
  have h : S32x256x256.Reduces [2] S32x256 := by decide
  unfold val_main_v4
  generalize hy : val_main_v3 (F := Ideal) a = y
  have e := Host.reduce_eq_fold_single (s := S32x256x256) (t := S32x256) (a := 2) (u := S_) (α := EReal)
    (FloatOps.maximumf (F := Ideal) (φ := .f32)) y (val_main_cst_0 (F := Ideal)) reducesTo_S32x256x256_S32x256_d2 h h_S_ (ix2 b i)
  refine e.trans ?_
  refine congrArg (Finset.univ.fold max negInf) (funext fun (k : Fin 256) => ?_)
  subst hy
  exact (congrArg (val_main_v3 (F := Ideal) a) (lift_row h b i k)).trans (ref_logit a b i k)

theorem ref_peak (b : Fin 32) (i : Fin 256) :
    val_main_v6 (F := Ideal) a (ix2 b i) = peak (fun k => logit (refSlab a b) i k) := by
  rw [val_main_v6_apply, val_main_v5_apply, val_main_cst_1_apply, ref_rowmax]
  rfl

theorem ref_exp (b : Fin 32) (i j : Fin 256) :
    val_main_v10 (F := Ideal) a (ix3 b i j) = Ideal.exp (logit (refSlab a b) i j - peak (fun k => logit (refSlab a b) i k)) := by
  rw [val_main_v10_apply, val_main_v9_apply, val_main_v8_apply, val_main_v7_apply, idx78, ref_peak, ref_logit]
  rfl

theorem ref_mass (b : Fin 32) (i : Fin 256) :
    val_main_v11 (F := Ideal) a (ix2 b i) = ∑ k : Fin 256, Ideal.exp (logit (refSlab a b) i k - peak (fun k' => logit (refSlab a b) i k')) := by
  rw [val_main_v11_apply, val_main_cst_2_apply]
  show Ideal.ofBits .f32 0x00000000#32 + _ = _
  rw [Ideal.ofBits_zero_f32, zero_add]
  refine Finset.sum_congr rfl fun k _ => ?_
  rw [idx11, ref_exp]

/-- The quotient is the row softmax. -/
theorem ref_attn (b : Fin 32) (i j : Fin 256) :
    val_main_v14 (F := Ideal) a (ix3 b i j) = softOf (fun k => logit (refSlab a b) i k) j := by
  rw [val_main_v14_apply, val_main_v13_apply, val_main_v12_apply, idx1213, ref_exp, ref_mass]
  rfl

/-- The second batched product: the slab's row weighted by the softmax. -/
theorem ref_mix (b : Fin 32) (d : Fin 3136) (i : Fin 256) :
    val_main_v15 (F := Ideal) a (ix3 b d i) = ∑ j : Fin 256, refSlab a b d j * softOf (fun k => logit (refSlab a b) i k) j := by
  rw [val_main_v15_apply]
  refine Finset.sum_congr rfl fun j _ => ?_
  rw [lidx15, ridx15, ref_attn]
  rfl

/-! ## The whole result -/

/-- `attend` of the reshaped argument is the second product plus the reshaped argument, entry by entry. -/
theorem attend_ref : attend (val_main_v0 (F := Ideal) a) = fun y => val_main_v15 (F := Ideal) a y + val_main_v0 (F := Ideal) a y := by
  funext y
  obtain ⟨b, d, i, rfl⟩ : ∃ (b : Fin 32) (d : Fin 3136) (i : Fin 256), y = ix3 b d i := ⟨y 0, y 1, y 2, eq_ix3 y⟩
  rw [attend_apply]
  show _ = val_main_v15 (F := Ideal) a (ix3 b d i) + val_main_v0 (F := Ideal) a (ix3 b d i)
  rw [ref_mix]
  rfl

/-- THE REFERENCE'S RESULT is the reshape of `attend` of the reshaped argument: the reshape back distributes over the
    entrywise sum, and reshaping the argument there and back is the identity. -/
theorem ref_result : val_main_v17 (F := Ideal) a
    = shapeCast S32x56x56x256 (attend (val_main_v0 (F := Ideal) a)) shapeCasts_S32x3136x256_S32x56x56x256 := by
  rw [attend_ref]
  funext y
  have hback : shapeCast S32x56x56x256 (val_main_v0 (F := Ideal) a) shapeCasts_S32x3136x256_S32x56x56x256 y = a y := by
    unfold val_main_v0; rw [shapeCast_shapeCast]
  refine (val_main_v17_apply a y).trans ?_
  rw [← hback]
  rfl

end Cert.ChannelAttention

end
-- ==== Proof.lean ====
/-
  Channel-wise self-attention with a residual, computed block by block on the chip, against the same function written
  with two batched products and a row softmax.

  Input x : [32, 56, 56, 256], read as 32 batches of a slab of 3136 positions × 256 channels. Per batch:
      G i j   = ∑ d, x d i * x d j            (correlation of channels over the positions)
      L       = G * 2⁻⁴                        (256^(-1/2) = 1/16, a dyadic number: the same float word in both programs)
      A i ·   = softmax of row i of L
      out d i = ∑ j, x d j * A i j + x d i.
  The kernel takes its softmax down the COLUMNS of L and multiplies by the result untransposed; since G is symmetric
  (each summand is a commuted product) column i of L is row i, so the two agree on all extended reals, infinities
  included: only commutativity of the product is used, and the precondition on the inputs is never opened.
  A change of float format is the identity on the extended reals, a matrix product into a zero accumulator is the bare
  sum, and the order of a maximum or a sum is immaterial; the kernel's sixteen blocks of two batches cover the array.
  The idealization rewrote nothing, so that conjunct is trivial.
-/
import proofs.«142073_j55396488183926_2_alg».proof.Defs
import proofs.«142073_j55396488183926_2_alg».proof.Proof.Gen.Kernel
import proofs.«142073_j55396488183926_2_alg».proof.Proof.Gen.Kernel.Skeleton
import proofs.«142073_j55396488183926_2_alg».proof.Proof.Gen.Kernel.Launch
import proofs.«142073_j55396488183926_2_alg».proof.Proof.Gen.Kernel.Points
import proofs.«142073_j55396488183926_2_alg».proof.Proof.Gen.Kernel.Frame
import proofs.«142073_j55396488183926_2_alg».proof.Proof.Gen.KernelIdeal
import proofs.«142073_j55396488183926_2_alg».proof.Proof.Gen.KernelIdeal.Skeleton
import proofs.«142073_j55396488183926_2_alg».proof.Proof.Gen.KernelIdeal.Launch
import proofs.«142073_j55396488183926_2_alg».proof.Proof.Gen.KernelIdeal.Points
import proofs.«142073_j55396488183926_2_alg».proof.Proof.Gen.KernelIdeal.Frame
import proofs.«142073_j55396488183926_2_alg».proof.Proof.Gen.ReferenceIdeal
import proofs.«142073_j55396488183926_2_alg».proof.Proof.Gen.ReferenceIdeal.Run
import proofs.«142073_j55396488183926_2_alg».proof.Proof.Gen.ReferenceIdeal.Read
import proofs.«142073_j55396488183926_2_alg».proof.Proof.Gen.Pre_finite_inputs
import proofs.«142073_j55396488183926_2_alg».proof.Proof.KernelRun
import proofs.«142073_j55396488183926_2_alg».proof.Proof.RefRead
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the reshape of `attend` of the reshaped argument: the kernel by its blocks, the reference
    stage by stage; the arguments agree, so the results are equal entry by entry. -/
theorem algebraic : Cert.algebraic_KernelIdeal_ReferenceIdeal := by
  intro m ρ m' ρ' _ hagree
  refine ⟨_, Cert.ChannelAttention.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ChannelAttention.ref_result, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
